-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x32 : S_.BroadcastsInDim S160x32 (![] : Fin 0 → Fin S160x32.rank)
  reducesTo_S160x32_S_d0_1 : S160x32.ReducesTo [0, 1] S_
  bcast_S_S32 : S_.BroadcastsInDim S32 (![] : Fin 0 → Fin S32.rank)
  reducesTo_S32_S_d0 : S32.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S96x64 .f32) (main_arg6 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S96x64 .f32 := Host.absf main_arg5
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x1600000 32) (main_arg2 : FVec F S1600000x32 .f32) (main_arg3 : FVec F S160x32 .f32) (main_arg4 : FVec F S32 .f32) (main_arg5 : FVec F S96x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x32 .f32 := Host.absf main_arg3
  let main_cst_2 : FVec F S_ .f32 := constant S_ .f32 0x7F800000#32
  let main_v10 : FVec F S160x32 .f32 := broadcastInDim S160x32 ![] bcast_S_S160x32 main_cst_2
  let main_v11 : IVec S160x32 1 := cmpf .olt main_v9 main_v10
  let main_c_3 : IVec S_ 1 := constantI S_ 1 1#1
  let main_v12 : IVec S_ 1 := (fun x v => Host.reduce IntOp.andi x v reducesTo_S160x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x32 : Shape := ⟨2, ![64, 32]⟩
abbrev S32x32 : Shape := ⟨2, ![32, 32]⟩
abbrev S1x32 : Shape := ⟨2, ![1, 32]⟩
abbrev S6400x64 : Shape := ⟨2, ![6400, 64]⟩
abbrev S6400x32 : Shape := ⟨2, ![6400, 32]⟩
abbrev S50000x32 : Shape := ⟨2, ![50000, 32]⟩
abbrev S64x64 : Shape := ⟨2, ![64, 64]⟩
abbrev S32x64 : Shape := ⟨2, ![32, 64]⟩
abbrev S1x64 : Shape := ⟨2, ![1, 64]⟩
abbrev S5000x64 : Shape := ⟨2, ![5000, 64]⟩
abbrev S5000x32 : Shape := ⟨2, ![5000, 32]⟩

abbrev nBuf : Space → Nat
  | .hbm => 42
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x32, .f32⟩
  | .hbm, ⟨4, _⟩ => ⟨S32, .f32⟩
  | .hbm, ⟨5, _⟩ => ⟨S96x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S64x32, .f32⟩
  | .hbm, ⟨30, _⟩ => ⟨S64x32, .f32⟩
  | .hbm, ⟨31, _⟩ => ⟨S32x32, .f32⟩
  | .hbm, ⟨32, _⟩ => ⟨S1x32, .f32⟩
  | .hbm, ⟨33, _⟩ => ⟨S1600000x32, .f32⟩
  | .hbm, ⟨34, _⟩ => ⟨S_, .f32⟩
  | .hbm, ⟨35, _⟩ => ⟨S50000x32, .f32⟩
  | .hbm, ⟨36, _⟩ => ⟨S1600000x1, .i32⟩
  | .hbm, ⟨37, _⟩ => ⟨S50000x32, .f32⟩
  | .hbm, ⟨38, _⟩ => ⟨S64x64, .f32⟩
  | .hbm, ⟨39, _⟩ => ⟨S32x64, .f32⟩
  | .hbm, ⟨40, _⟩ => ⟨S1x64, .f32⟩
  | .hbm, ⟨41, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x32, .f32⟩
  | .local _ .vmem, ⟨5, _⟩ => ⟨S6400x32, .f32⟩
  | .local _ .vmem, ⟨6, _⟩ => ⟨S64x32, .f32⟩
  | .local _ .vmem, ⟨7, _⟩ => ⟨S64x32, .f32⟩
  | .local _ .vmem, ⟨8, _⟩ => ⟨S32x32, .f32⟩
  | .local _ .vmem, ⟨9, _⟩ => ⟨S1x32, .f32⟩
  | .local _ .vmem, ⟨10, _⟩ => ⟨S6400x32, .f32⟩
  | .local _ .vmem, ⟨11, _⟩ => ⟨S6400x32, .f32⟩
  | .local _ .vmem, ⟨12, _⟩ => ⟨S5000x64, .f32⟩
  | .local _ .vmem, ⟨13, _⟩ => ⟨S5000x64, .f32⟩
  | .local _ .vmem, ⟨14, _⟩ => ⟨S5000x32, .f32⟩
  | .local _ .vmem, ⟨15, _⟩ => ⟨S5000x32, .f32⟩
  | .local _ .vmem, ⟨16, _⟩ => ⟨S64x64, .f32⟩
  | .local _ .vmem, ⟨17, _⟩ => ⟨S32x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S160x32_S64x32_0_0 : S160x32.Slices ![0, 0] S64x32
  slices_S160x32_S64x32_64_0 : S160x32.Slices ![64, 0] S64x32
  slices_S160x32_S32x32_128_0 : S160x32.Slices ![128, 0] S32x32
  shapeCasts_S32_S1x32 : S32.ShapeCasts S1x32
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  bcast_S_S50000x32 : S_.BroadcastsInDim S50000x32 (![] : Fin 0 → Fin S50000x32.rank)
  slices_S96x64_S64x64_0_0 : S96x64.Slices ![0, 0] S64x64
  slices_S96x64_S32x64_64_0 : S96x64.Slices ![64, 0] S32x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  dot_S6400x64_S64x32_S6400x32_1_0_0_1_n_n_wf : DotDims.WF S6400x64 S64x32 S6400x32 [1] [0] [0] [1] [] []
  dot_S6400x32_S32x32_S6400x32_1_0_0_1_n_n_wf : DotDims.WF S6400x32 S32x32 S6400x32 [1] [0] [0] [1] [] []
  scatter_S50000x32_S1600000x1_S1600000x32_1_0_0_1_wf : ScatterDims.WF S50000x32 S1600000x1 S1600000x32 [1] [0] [0] 1
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x32.size a ≤ S1600000x32.size a
  hwx0_7 : ∀ i : grid0.Coords, EltTy.bits .f32 = 32 ∨ (Rect.block (s := S1600000x32) S6400x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x64_S64x32_S6400x32_1_0_0_1_n_n : DotDims S6400x64 S64x32 S6400x32 where
  lhsContracting := [1]
  rhsContracting := [0]
  lhsNonContracting := [0]
  rhsNonContracting := [1]
  lhsBatch := []
  rhsBatch := []
  wf := dot_S6400x64_S64x32_S6400x32_1_0_0_1_n_n_wf
def dot_S6400x32_S32x32_S6400x32_1_0_0_1_n_n : DotDims S6400x32 S32x32 S6400x32 where
  lhsContracting := [1]
  rhsContracting := [0]
  lhsNonContracting := [0]
  rhsNonContracting := [1]
  lhsBatch := []
  rhsBatch := []
  wf := dot_S6400x32_S32x32_S6400x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6400x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1x32 : Shape := ⟨2, ![1, 32]⟩
abbrev S50000x32 : Shape := ⟨2, ![50000, 32]⟩
abbrev S50000x96 : Shape := ⟨2, ![50000, 96]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x32, .f32⟩
  | .hbm, ⟨4, _⟩ => ⟨S32, .f32⟩
  | .hbm, ⟨5, _⟩ => ⟨S96x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x160, .f32⟩
  | .hbm, ⟨30, _⟩ => ⟨S1600000x32, .f32⟩
  | .hbm, ⟨31, _⟩ => ⟨S1x32, .f32⟩
  | .hbm, ⟨32, _⟩ => ⟨S1600000x32, .f32⟩
  | .hbm, ⟨33, _⟩ => ⟨S1600000x32, .f32⟩
  | .hbm, ⟨34, _⟩ => ⟨S_, .f32⟩
  | .hbm, ⟨35, _⟩ => ⟨S1600000x32, .f32⟩
  | .hbm, ⟨36, _⟩ => ⟨S1600000x32, .f32⟩
  | .hbm, ⟨37, _⟩ => ⟨S_, .f32⟩
  | .hbm, ⟨38, _⟩ => ⟨S50000x32, .f32⟩
  | .hbm, ⟨39, _⟩ => ⟨S1600000x1, .i32⟩
  | .hbm, ⟨40, _⟩ => ⟨S50000x32, .f32⟩
  | .hbm, ⟨41, _⟩ => ⟨S50000x96, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  concatenates_S50000x64_S50000x32_S50000x96_d1 : Shape.Concatenates [S50000x64, S50000x32] S50000x96 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x64_S1600000x1_S1600000x64_1_0_n_n_0_1_164_wf : GatherDims.WF S50000x64 S1600000x1 S1600000x64 [1] [0] [] [0] [] 1 ![1, 64]
  dot_S1600000x160_S160x32_S1600000x32_1_0_0_1_n_n_wf : DotDims.WF S1600000x160 S160x32 S1600000x32 [1] [0] [0] [1] [] []
  scatter_S50000x32_S1600000x1_S1600000x32_1_0_0_1_wf : ScatterDims.WF S50000x32 S1600000x1 S1600000x32 [1] [0] [0] 1
  dot_S50000x96_S96x64_S50000x64_1_0_0_1_n_n_wf : DotDims.WF S50000x96 S96x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x32_S1600000x32_1_0_0_1_n_n : DotDims S1600000x160 S160x32 S1600000x32 where
  lhsContracting := [1]
  rhsContracting := [0]
  lhsNonContracting := [0]
  rhsNonContracting := [1]
  lhsBatch := []
  rhsBatch := []
  wf := dot_S1600000x160_S160x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibJoinedAxis.lean ====
/-
  Matrix products over a joined axis, at the ideal values.  When the columns of the left factor are two or three pieces
  laid side by side, [x | y]·W or [x | y | z]·W, the product is the sum of the pieces' products with the matching blocks
  of consecutive rows of W: a finite sum over a joined index range is the sum of the sums over its pieces, which on the
  extended reals uses only that addition is commutative and associative (no finiteness).  With it: a block of
  consecutive rows of a matrix as a function of the index and as what a unit-stride host slice cuts out, a vector recast
  as a one-row matrix, and that a row of a product depends on that row of the left factor only.
-/
import proofs.«154499_j72026601554521_2_alg».proof.Proof.LibMatmul
import Idealize.ShloMosaic.Lib.Pipeline.Value

noncomputable section

open scoped BigOperators

namespace Cert.LibJoinedAxis

open Idealize.ShloMosaic Idealize.ShloMosaic.ValueIdx Cert.LibMatmul

/-- Rows `off, …, off + K' - 1` of a matrix with `K` rows. -/
def rowsAt {K B : Nat} (off K' : Nat) (h : off + K' ≤ K) (w : (⟨2, ![K, B]⟩ : Shape).Idx → EReal) :
    (⟨2, ![K', B]⟩ : Shape).Idx → EReal :=
  fun i => w (ix2 ⟨off + (i 0).val, by have := idx2_lt0 i; omega⟩ (i 1))

theorem rowsAt_apply {K B : Nat} (off K' : Nat) (h : off + K' ≤ K) (w : (⟨2, ![K, B]⟩ : Shape).Idx → EReal)
    (k : Fin K') (q : Fin B) : rowsAt off K' h w (ix2 k q) = w (ix2 ⟨off + k.val, by have := k.isLt; omega⟩ q) := rfl

/-- Rows `off, …, off + K' - 1` of a matrix, all columns, are what a unit-stride slice at offset (off, 0) cuts out. -/
theorem slice_rows {K B K' : Nat} (off : Nat) (w : (⟨2, ![K, B]⟩ : Shape).Idx → EReal)
    (h : (⟨2, ![K, B]⟩ : Shape).Slices ![off, 0] ⟨2, ![K', B]⟩) (hle : off + K' ≤ K) :
    extractStridedSlice ⟨2, ![K', B]⟩ ![off, 0] w h = rowsAt off K' hle w := by
  funext i
  obtain ⟨k, q, rfl⟩ : ∃ (k : Fin K') (q : Fin B), i = ix2 k q := ⟨i 0, i 1, eq_ix2 i⟩
  rw [rowsAt_apply]
  refine extractStridedSlice_apply ![off, 0] w h (ix2 k q) (ix2 ⟨off + k.val, by have := k.isLt; omega⟩ q) (fun a => ?_)
  match a with
  | ⟨0, _⟩ => rfl
  | ⟨1, _⟩ => show q.val = 0 + q.val; omega

/-- A vector recast as a one-row matrix reads the vector at the column. -/
theorem reshape_row {B : Nat} (v : (⟨1, ![B]⟩ : Shape).Idx → EReal)
    (h : (⟨1, ![B]⟩ : Shape).ShapeCasts ⟨2, ![1, B]⟩) :
    shapeCast ⟨2, ![1, B]⟩ v h = fun i => v (ix1 (i 1)) := by
  funext i
  refine shapeCast_apply v h i (ix1 (i 1)) ?_
  rewrite [Shape.rowMajor_val_one, Shape.rowMajor_val_two]
  have h0 : (i 0).val < 1 := idx2_lt0 i
  have h00 : (i 0).val = 0 := by omega
  show (i 1).val = (i 0).val * B + (i 1).val
  rw [h00]; omega

/-- A row of a matrix product depends on that row of the left factor only. -/
theorem MM_row {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A') (q : Fin B)
    (hx : ∀ k : Fin K, x (ix2 p k) = x' (ix2 p' k)) : MM x w (ix2 p q) = MM x' w (ix2 p' q) := by
  rw [MM_apply, MM_apply]
  exact Finset.sum_congr rfl fun k _ => by rw [hx k]

/-! ## A sum over a joined index range is the sum of the sums over its pieces -/

theorem sum_two {M : Type} [AddCommMonoid M] (a b : Nat) (f : Fin (a + b) → M) :
    ∑ k : Fin (a + b), f k
      = ∑ k : Fin a, f ⟨0 + k.val, by have := k.isLt; omega⟩ + ∑ k : Fin b, f ⟨a + k.val, by have := k.isLt; omega⟩ := by
  rw [Fin.sum_univ_add]
  refine congrArg₂ (· + ·) ?_ ?_ <;> refine Finset.sum_congr rfl fun k _ => congrArg f (Fin.ext ?_)
  · show k.val = 0 + k.val; omega
  · rfl

theorem sum_three {M : Type} [AddCommMonoid M] (a b c : Nat) (f : Fin (a + b + c) → M) :
    ∑ k : Fin (a + b + c), f k
      = (∑ k : Fin a, f ⟨0 + k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  refine congrArg₂ (· + ·) (congrArg₂ (· + ·) ?_ ?_) ?_ <;> refine Finset.sum_congr rfl fun k _ => congrArg f (Fin.ext ?_)
  · show k.val = 0 + k.val; omega
  · rfl
  · rfl

/-! ## The product of a matrix whose columns are pieces laid side by side -/

/-- [x | y]·W = x·(the first `a` rows of W) + y·(the next `b` rows), at row `p` and column `q`; the joined matrix enters
    only through its row `p` read at a column of each piece. -/
theorem MM_join2 {E a b B : Nat} (cat : (⟨2, ![E, a + b]⟩ : Shape).Idx → EReal) (x : (⟨2, ![E, a]⟩ : Shape).Idx → EReal)
    (y : (⟨2, ![E, b]⟩ : Shape).Idx → EReal) (w : (⟨2, ![a + b, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k)) :
    MM cat w (ix2 p q)
      = MM x (rowsAt 0 a (by omega) w) (ix2 p q) + MM y (rowsAt a b (by omega) w) (ix2 p q) := by
  rw [MM_apply, MM_apply, MM_apply]
  refine (sum_two a b (fun k : Fin (a + b) => cat (ix2 p k) * w (ix2 k q))).trans ?_
  refine congrArg₂ (· + ·) ?_ ?_
  · exact Finset.sum_congr rfl fun k _ => by rw [rowsAt_apply]; exact congrArg (· * _) (h0 k)
  · exact Finset.sum_congr rfl fun k _ => by rw [rowsAt_apply]; exact congrArg (· * _) (h1 k)

/-- [x | y | z]·W = x·(the first `a` rows of W) + y·(the next `b` rows) + z·(the last `c` rows), the three products added
    left to right. -/
theorem MM_join3 {E a b c B : Nat} (cat : (⟨2, ![E, a + b + c]⟩ : Shape).Idx → EReal) (x : (⟨2, ![E, a]⟩ : Shape).Idx → EReal)
    (y : (⟨2, ![E, b]⟩ : Shape).Idx → EReal) (z : (⟨2, ![E, c]⟩ : Shape).Idx → EReal)
    (w : (⟨2, ![a + b + c, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k))
    (h2 : ∀ k : Fin c, cat (ix2 p ⟨a + b + k.val, by have := k.isLt; omega⟩) = z (ix2 p k)) :
    MM cat w (ix2 p q)
      = (MM x (rowsAt 0 a (by omega) w) (ix2 p q) + MM y (rowsAt a b (by omega) w) (ix2 p q))
        + MM z (rowsAt (a + b) c (by omega) w) (ix2 p q) := by
  rw [MM_apply, MM_apply, MM_apply, MM_apply]
  refine (sum_three a b c (fun k : Fin (a + b + c) => cat (ix2 p k) * w (ix2 k q))).trans ?_
  refine congrArg₂ (· + ·) (congrArg₂ (· + ·) ?_ ?_) ?_
  · exact Finset.sum_congr rfl fun k _ => by rw [rowsAt_apply]; exact congrArg (· * _) (h0 k)
  · exact Finset.sum_congr rfl fun k _ => by rw [rowsAt_apply]; exact congrArg (· * _) (h1 k)
  · exact Finset.sum_congr rfl fun k _ => by rw [rowsAt_apply]; exact congrArg (· * _) (h2 k)

end Cert.LibJoinedAxis

end
-- ==== Proof.Spec.lean ====
/-
  The two layers of the message-passing network as functions of whole arrays, at the ideal values.

  An edge's message is  relu (x₀·Wa + x₁·Wb + xe·Wc + b)  where x₀, x₁ are the rows of the two gathered
  endpoint arrays, xe the edge's own features and Wa, Wb, Wc three consecutive row blocks of one weight matrix;
  a node's output is  relu (x·Wa' + s·Wb' + b')  with s the summed messages.  Written against the concatenated
  input, the same numbers are  relu ([x₀ | x₁ | xe]·W + b)  and  relu ([x | s]·W' + b'):  a sum over the joined
  axis is the sum of the sums over its pieces, which on the extended reals needs only that addition is
  commutative and associative.
-/
import proofs.«154499_j72026601554521_2_alg».proof.Proof.LibJoinedAxis

noncomputable section

open scoped BigOperators

namespace Cert.Spec

open Idealize.ShloMosaic Idealize.ShloMosaic.ValueIdx Cert.LibMatmul Cert.LibJoinedAxis

/-- The word of +0.0, the floor of a relu; the same word on both sides, never evaluated. -/
abbrev Z : EReal := Ideal.ofBits .f32 0x00000000#32

/-! ## The edge layer -/

/-- relu (x₀·Wa + x₁·Wb + xe·Wc + b), the three products added left to right, the bias a one-row matrix. -/
def edgeK {E : Nat} (g0 g1 : (⟨2, ![E, 64]⟩ : Shape).Idx → EReal) (ef : (⟨2, ![E, 32]⟩ : Shape).Idx → EReal)
    (wa wb : (⟨2, ![64, 32]⟩ : Shape).Idx → EReal) (wc : (⟨2, ![32, 32]⟩ : Shape).Idx → EReal)
    (b : (⟨2, ![1, 32]⟩ : Shape).Idx → EReal) : (⟨2, ![E, 32]⟩ : Shape).Idx → EReal :=
  fun i => max (((MM g0 wa i + MM g1 wb i) + MM ef wc i) + b (ix2 0 (i 1))) Z

theorem edgeK_apply {E : Nat} (g0 g1 : (⟨2, ![E, 64]⟩ : Shape).Idx → EReal) (ef : (⟨2, ![E, 32]⟩ : Shape).Idx → EReal)
    (wa wb : (⟨2, ![64, 32]⟩ : Shape).Idx → EReal) (wc : (⟨2, ![32, 32]⟩ : Shape).Idx → EReal)
    (b : (⟨2, ![1, 32]⟩ : Shape).Idx → EReal) (p : Fin E) (q : Fin 32) :
    edgeK g0 g1 ef wa wb wc b (ix2 p q)
      = max (((MM g0 wa (ix2 p q) + MM g1 wb (ix2 p q)) + MM ef wc (ix2 p q)) + b (ix2 0 q)) Z := rfl

/-- An edge's message depends on that edge's rows only: a block of the messages is the layer of the blocks. -/
theorem edgeK_row {E E' : Nat} (g0 g1 : (⟨2, ![E, 64]⟩ : Shape).Idx → EReal) (ef : (⟨2, ![E, 32]⟩ : Shape).Idx → EReal)
    (g0' g1' : (⟨2, ![E', 64]⟩ : Shape).Idx → EReal) (ef' : (⟨2, ![E', 32]⟩ : Shape).Idx → EReal)
    (wa wb : (⟨2, ![64, 32]⟩ : Shape).Idx → EReal) (wc : (⟨2, ![32, 32]⟩ : Shape).Idx → EReal)
    (b : (⟨2, ![1, 32]⟩ : Shape).Idx → EReal) (p : Fin E) (p' : Fin E') (q : Fin 32)
    (h0 : ∀ k : Fin 64, g0 (ix2 p k) = g0' (ix2 p' k)) (h1 : ∀ k : Fin 64, g1 (ix2 p k) = g1' (ix2 p' k))
    (h2 : ∀ k : Fin 32, ef (ix2 p k) = ef' (ix2 p' k)) :
    edgeK g0 g1 ef wa wb wc b (ix2 p q) = edgeK g0' g1' ef' wa wb wc b (ix2 p' q) := by
  rw [edgeK_apply, edgeK_apply, MM_row g0 g0' wa p p' q h0, MM_row g1 g1' wb p p' q h1, MM_row ef ef' wc p p' q h2]

/-- The edge layer against the whole weight matrix and the bias vector. -/
def edgeFn {E : Nat} (g0 g1 : (⟨2, ![E, 64]⟩ : Shape).Idx → EReal) (ef : (⟨2, ![E, 32]⟩ : Shape).Idx → EReal)
    (w : (⟨2, ![160, 32]⟩ : Shape).Idx → EReal) (b : (⟨1, ![32]⟩ : Shape).Idx → EReal) :
    (⟨2, ![E, 32]⟩ : Shape).Idx → EReal :=
  edgeK g0 g1 ef (rowsAt 0 64 (by decide) w) (rowsAt 64 64 (by decide) w) (rowsAt 128 32 (by decide) w)
    (fun i => b (ix1 (i 1)))

/-! ## The node layer -/

/-- relu (x·Wa' + s·Wb' + b'). -/
def nodeK {N : Nat} (nf : (⟨2, ![N, 64]⟩ : Shape).Idx → EReal) (s : (⟨2, ![N, 32]⟩ : Shape).Idx → EReal)
    (wa : (⟨2, ![64, 64]⟩ : Shape).Idx → EReal) (wb : (⟨2, ![32, 64]⟩ : Shape).Idx → EReal)
    (b : (⟨2, ![1, 64]⟩ : Shape).Idx → EReal) : (⟨2, ![N, 64]⟩ : Shape).Idx → EReal :=
  fun i => max ((MM nf wa i + MM s wb i) + b (ix2 0 (i 1))) Z

theorem nodeK_apply {N : Nat} (nf : (⟨2, ![N, 64]⟩ : Shape).Idx → EReal) (s : (⟨2, ![N, 32]⟩ : Shape).Idx → EReal)
    (wa : (⟨2, ![64, 64]⟩ : Shape).Idx → EReal) (wb : (⟨2, ![32, 64]⟩ : Shape).Idx → EReal)
    (b : (⟨2, ![1, 64]⟩ : Shape).Idx → EReal) (p : Fin N) (q : Fin 64) :
    nodeK nf s wa wb b (ix2 p q) = max ((MM nf wa (ix2 p q) + MM s wb (ix2 p q)) + b (ix2 0 q)) Z := rfl

/-- A node's output depends on that node's rows only. -/
theorem nodeK_row {N N' : Nat} (nf : (⟨2, ![N, 64]⟩ : Shape).Idx → EReal) (s : (⟨2, ![N, 32]⟩ : Shape).Idx → EReal)
    (nf' : (⟨2, ![N', 64]⟩ : Shape).Idx → EReal) (s' : (⟨2, ![N', 32]⟩ : Shape).Idx → EReal)
    (wa : (⟨2, ![64, 64]⟩ : Shape).Idx → EReal) (wb : (⟨2, ![32, 64]⟩ : Shape).Idx → EReal)
    (b : (⟨2, ![1, 64]⟩ : Shape).Idx → EReal) (p : Fin N) (p' : Fin N') (q : Fin 64)
    (h0 : ∀ k : Fin 64, nf (ix2 p k) = nf' (ix2 p' k)) (h1 : ∀ k : Fin 32, s (ix2 p k) = s' (ix2 p' k)) :
    nodeK nf s wa wb b (ix2 p q) = nodeK nf' s' wa wb b (ix2 p' q) := by
  rw [nodeK_apply, nodeK_apply, MM_row nf nf' wa p p' q h0, MM_row s s' wb p p' q h1]

/-- The node layer against the whole weight matrix and the bias vector. -/
def nodeFn {N : Nat} (nf : (⟨2, ![N, 64]⟩ : Shape).Idx → EReal) (s : (⟨2, ![N, 32]⟩ : Shape).Idx → EReal)
    (w : (⟨2, ![96, 64]⟩ : Shape).Idx → EReal) (b : (⟨1, ![64]⟩ : Shape).Idx → EReal) :
    (⟨2, ![N, 64]⟩ : Shape).Idx → EReal :=
  nodeK nf s (rowsAt 0 64 (by decide) w) (rowsAt 64 32 (by decide) w) (fun i => b (ix1 (i 1)))

/-! ## The layers against the joined inputs -/

/-- The product of the matrix whose columns are the three pieces laid side by side, [x₀ | x₁ | xe]·W, is the sum of the
    pieces' products with the matching row blocks of W. -/
theorem MM_cat3 {E : Nat} (cat : (⟨2, ![E, 160]⟩ : Shape).Idx → EReal) (g0 g1 : (⟨2, ![E, 64]⟩ : Shape).Idx → EReal)
    (ef : (⟨2, ![E, 32]⟩ : Shape).Idx → EReal) (w : (⟨2, ![160, 32]⟩ : Shape).Idx → EReal) (p : Fin E) (q : Fin 32)
    (h0 : ∀ k : Fin 64, cat (ix2 p ⟨0 + k.val, by have := k.isLt; omega⟩) = g0 (ix2 p k))
    (h1 : ∀ k : Fin 64, cat (ix2 p ⟨64 + k.val, by have := k.isLt; omega⟩) = g1 (ix2 p k))
    (h2 : ∀ k : Fin 32, cat (ix2 p ⟨128 + k.val, by have := k.isLt; omega⟩) = ef (ix2 p k)) :
    MM cat w (ix2 p q)
      = (MM g0 (rowsAt 0 64 (by decide) w) (ix2 p q) + MM g1 (rowsAt 64 64 (by decide) w) (ix2 p q))
        + MM ef (rowsAt 128 32 (by decide) w) (ix2 p q) :=
  MM_join3 (a := 64) (b := 64) (c := 32) cat g0 g1 ef w p q h0 h1 h2

/-- [x | s]·W' likewise. -/
theorem MM_cat2 {N : Nat} (cat : (⟨2, ![N, 96]⟩ : Shape).Idx → EReal) (nf : (⟨2, ![N, 64]⟩ : Shape).Idx → EReal)
    (s : (⟨2, ![N, 32]⟩ : Shape).Idx → EReal) (w : (⟨2, ![96, 64]⟩ : Shape).Idx → EReal) (p : Fin N) (q : Fin 64)
    (h0 : ∀ k : Fin 64, cat (ix2 p ⟨0 + k.val, by have := k.isLt; omega⟩) = nf (ix2 p k))
    (h1 : ∀ k : Fin 32, cat (ix2 p ⟨64 + k.val, by have := k.isLt; omega⟩) = s (ix2 p k)) :
    MM cat w (ix2 p q)
      = MM nf (rowsAt 0 64 (by decide) w) (ix2 p q) + MM s (rowsAt 64 32 (by decide) w) (ix2 p q) :=
  MM_join2 (a := 64) (b := 32) cat nf s w p q h0 h1

end Cert.Spec

end
-- ==== Proof.KRun.lean ====
/-
  The kernel program's run with its result named.  The program is two pipelined regions between three
  stretches of host operations; after the last region every buffer the TensorCore can see holds the contents
  the fold of the segments gives it, so the result buffer ends at the second region's output array as the
  write-backs of its grid points leave it, and the seven argument arrays end as launched.
-/
import proofs.«154499_j72026601554521_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_last : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The last boundary's contents at the result buffer: the second region's output array after its run. -/
theorem last_result (c : Dev nD) :
    W4 m ρ c (Proc.devRef .tc main_v29) = (dat1 (V3 m ρ) c).arrAt 5 cfg1.N := W4_arr m ρ c 5

end Cert.KernelIdeal.RunValue

end
-- ==== Proof.K0Value.lean ====
/-
  The first region's output array, at the ideal values.  Each of the 250 grid points takes 6400 consecutive
  edges: its block of the two gathered endpoint arrays and of the edge features, with the three weight blocks
  and the bias whole, and writes back that block of the messages.  The body's value is the edge layer of its
  blocks; a message depends on its own edge's rows only, so every block written back is a block of the edge
  layer of the whole arrays, and the 250 blocks tile the rows.
-/
import proofs.«154499_j72026601554521_2_alg».proof.Proof.Gen.KernelIdeal.Frame
import proofs.«154499_j72026601554521_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeValue

open Cert.KernelIdeal Cert.KernelIdeal.Gen Cert.Spec Cert.LibMatmul
open Idealize.ShloMosaic Idealize.ShloMosaic.TcCoe Idealize.ShloMosaic.ValueIdx Idealize.SL.Sem
open Idealize.ShloMosaic.Pipeline (Dat Cfg Window)

/-- The body's value from its loaded blocks is the edge layer of the blocks. -/
theorem pay_eq (x0 x1 : Vec Ideal S6400x64 .f32) (x2 : Vec Ideal S6400x32 .f32) (x3 x4 : Vec Ideal S64x32 .f32)
    (x5 : Vec Ideal S32x32 .f32) (x6 : Vec Ideal S1x32 .f32) :
    k0_pay1 (F := Ideal) x0 x1 x2 x3 x4 x5 x6 = edgeK x0 x1 x2 x3 x4 x5 x6 := by
  unfold k0_pay1
  simp only [shapeCast_self]
  funext j
  obtain ⟨p, q, rfl⟩ : ∃ (p : Fin 6400) (q : Fin 32), j = ix2 p q := ⟨j 0, j 1, eq_ix2 j⟩
  rw [edgeK_apply, maximumf_apply, addf_apply, addf_apply, addf_apply]
  refine congrArg₂ max (congrArg₂ (· + ·) (congrArg₂ (· + ·) (congrArg₂ (· + ·) ?_ ?_) ?_) ?_) rfl
  · exact congrFun (matmul_zero_eq dot_S6400x64_S64x32_S6400x32_1_0_0_1_n_n rfl rfl rfl rfl rfl rfl none _ _) _
  · exact congrFun (matmul_zero_eq dot_S6400x64_S64x32_S6400x32_1_0_0_1_n_n rfl rfl rfl rfl rfl rfl none _ _) _
  · exact congrFun (matmul_zero_eq dot_S6400x32_S32x32_S6400x32_1_0_0_1_n_n rfl rfl rfl rfl rfl rfl none _ _) _
  · exact broadcastTo_apply x6 broadcasts_S1x32_S6400x32 (ix2 p q) (ix2 0 q) (fun a => match a with
      | ⟨0, _⟩ => rfl
      | ⟨1, _⟩ => rfl)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The messages as one function of the arrays the region finds: the edge layer of the two gathered arrays, the edge
    features, the three weight blocks and the bias row. -/
abbrev msgs (c : Dev nD) : S1600000x32.Idx → EReal :=
  edgeK (V c main_v10) (V c main_v17) (V c main_arg2) (V c main_v18) (V c main_v19) (V c main_v20) (V c main_v21)

/-- The index maps over the grid: point `t` takes row block `t` of the three edge-indexed inputs and of the output, and
    the whole of the weights and the bias. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The edge layer of a row block of the edge-indexed inputs is that row block of the edge layer. -/
theorem edge_block (g0 g1 : S1600000x64.Idx → EReal) (ef : S1600000x32.Idx → EReal)
    (wa wb : S64x32.Idx → EReal) (wc : S32x32.Idx → EReal) (b : S1x32.Idx → EReal)
    (x0 x1 : S6400x64.Idx → EReal) (x2 : S6400x32.Idx → EReal)
    (x3 x4 : S64x32.Idx → EReal) (x5 : S32x32.Idx → EReal) (x6 : S1x32.Idx → EReal)
    (p : Fin 6400) (P : Fin 1600000) (q : Fin 32)
    (h0 : ∀ k : Fin 64, x0 (ix2 p k) = g0 (ix2 P k)) (h1 : ∀ k : Fin 64, x1 (ix2 p k) = g1 (ix2 P k))
    (h2 : ∀ k : Fin 32, x2 (ix2 p k) = ef (ix2 P k))
    (h3 : x3 = wa) (h4 : x4 = wb) (h5 : x5 = wc) (h6 : x6 = b) :
    edgeK x0 x1 x2 x3 x4 x5 x6 (ix2 p q) = edgeK g0 g1 ef wa wb wc b (ix2 P q) := by
  subst h3 h4 h5 h6
  exact edgeK_row x0 x1 x2 g0 g1 ef x3 x4 x5 x6 p P q h0 h1 h2

/-- What point `t` writes back is block `t` of the messages. -/
theorem flushed_eq (c : Dev nD) (t : Fin cfg0.N) :
    (dat0 V c).flushed 7 t = ((cfg0.win 7).blk t).view.read (Elt Ideal) (msgs V c) := by
  show (cfg0.win 7).cut (grid0.coords t) ((dat0 V c).after 7 t) = _
  rw [after0_7]
  unfold out0_7
  rw [View.canon_unit_zero hz]
  simp only [View.ld_unit_zero (S := S6400x64) hz, View.ld_unit_zero (S := S6400x32) hz, View.ld_unit_zero (S := S64x32) hz,
    View.ld_unit_zero (S := S32x32) hz, View.ld_unit_zero (S := S1x32) hz]
  rw [pay_eq]
  obtain ⟨e00, e01, e10, e11, e20, e21, e30, e31, e40, e41, e50, e51, e60, e61, e70, e71⟩ := idx_facts t
  have ht : t.val < 250 := lt_of_lt_of_eq t.isLt N_0
  funext j
  obtain ⟨p, q, rfl⟩ : ∃ (p : Fin 6400) (q : Fin 32), j = ix2 p q := ⟨j 0, j 1, eq_ix2 j⟩
  have hp : p.val < 6400 := p.isLt
  have hq : q.val < 32 := q.isLt
  have he : ((cfg0.win 7).blk t).view.emb (ix2 p q) = ix2 (⟨t.val * 6400 + p.val, by omega⟩ : Fin 1600000) q := by
    funext a; apply Fin.ext
    match a with
    | ⟨0, _⟩ => show win0_7.index t (0 : Fin 2) * 6400 + 1 * p.val = t.val * 6400 + p.val; omega
    | ⟨1, _⟩ => show win0_7.index t (1 : Fin 2) * 32 + 1 * q.val = q.val; omega
  show edgeK (iblk0 V c 0 t) (iblk0 V c 1 t) (iblk0 V c 2 t) (iblk0 V c 3 t) (iblk0 V c 4 t) (iblk0 V c 5 t) (iblk0 V c 6 t) (ix2 p q)
    = msgs V c (((cfg0.win 7).blk t).view.emb (ix2 p q))
  rw [he]
  refine edge_block (V c main_v10) (V c main_v17) (V c main_arg2) (V c main_v18) (V c main_v19) (V c main_v20) (V c main_v21)
    (iblk0 V c 0 t) (iblk0 V c 1 t) (iblk0 V c 2 t) (iblk0 V c 3 t) (iblk0 V c 4 t) (iblk0 V c 5 t) (iblk0 V c 6 t)
    p ⟨t.val * 6400 + p.val, by omega⟩ q ?_ ?_ ?_ ?_ ?_ ?_ ?_
  · intro k
    have hk : k.val < 64 := k.isLt
    show V c main_v10 (((cfg0.win 0).blk t).view.emb (ix2 p k)) = V c main_v10 (ix2 (⟨t.val * 6400 + p.val, by omega⟩ : Fin 1600000) k)
    refine congrArg (V c main_v10) (funext fun a => Fin.ext ?_)
    match a with
    | ⟨0, _⟩ => show win0_0.index t (0 : Fin 2) * 6400 + 1 * p.val = t.val * 6400 + p.val; omega
    | ⟨1, _⟩ => show win0_0.index t (1 : Fin 2) * 64 + 1 * k.val = k.val; omega
  · intro k
    have hk : k.val < 64 := k.isLt
    show V c main_v17 (((cfg0.win 1).blk t).view.emb (ix2 p k)) = V c main_v17 (ix2 (⟨t.val * 6400 + p.val, by omega⟩ : Fin 1600000) k)
    refine congrArg (V c main_v17) (funext fun a => Fin.ext ?_)
    match a with
    | ⟨0, _⟩ => show win0_1.index t (0 : Fin 2) * 6400 + 1 * p.val = t.val * 6400 + p.val; omega
    | ⟨1, _⟩ => show win0_1.index t (1 : Fin 2) * 64 + 1 * k.val = k.val; omega
  · intro k
    have hk : k.val < 32 := k.isLt
    show V c main_arg2 (((cfg0.win 2).blk t).view.emb (ix2 p k)) = V c main_arg2 (ix2 (⟨t.val * 6400 + p.val, by omega⟩ : Fin 1600000) k)
    refine congrArg (V c main_arg2) (funext fun a => Fin.ext ?_)
    match a with
    | ⟨0, _⟩ => show win0_2.index t (0 : Fin 2) * 6400 + 1 * p.val = t.val * 6400 + p.val; omega
    | ⟨1, _⟩ => show win0_2.index t (1 : Fin 2) * 32 + 1 * k.val = k.val; omega
  · funext y
    show V c main_v18 (((cfg0.win 3).blk t).view.emb y) = V c main_v18 y
    refine congrArg (V c main_v18) (funext fun a => Fin.ext ?_)
    match a with
    | ⟨0, _⟩ => show win0_3.index t (0 : Fin 2) * 64 + 1 * (y 0).val = (y 0).val; omega
    | ⟨1, _⟩ => show win0_3.index t (1 : Fin 2) * 32 + 1 * (y 1).val = (y 1).val; omega
  · funext y
    show V c main_v19 (((cfg0.win 4).blk t).view.emb y) = V c main_v19 y
    refine congrArg (V c main_v19) (funext fun a => Fin.ext ?_)
    match a with
    | ⟨0, _⟩ => show win0_4.index t (0 : Fin 2) * 64 + 1 * (y 0).val = (y 0).val; omega
    | ⟨1, _⟩ => show win0_4.index t (1 : Fin 2) * 32 + 1 * (y 1).val = (y 1).val; omega
  · funext y
    show V c main_v20 (((cfg0.win 5).blk t).view.emb y) = V c main_v20 y
    refine congrArg (V c main_v20) (funext fun a => Fin.ext ?_)
    match a with
    | ⟨0, _⟩ => show win0_5.index t (0 : Fin 2) * 32 + 1 * (y 0).val = (y 0).val; omega
    | ⟨1, _⟩ => show win0_5.index t (1 : Fin 2) * 32 + 1 * (y 1).val = (y 1).val; omega
  · funext y
    show V c main_v21 (((cfg0.win 6).blk t).view.emb y) = V c main_v21 y
    refine congrArg (V c main_v21) (funext fun a => Fin.ext ?_)
    match a with
    | ⟨0, _⟩ => show win0_6.index t (0 : Fin 2) * 1 + 1 * (y 0).val = (y 0).val; omega
    | ⟨1, _⟩ => show win0_6.index t (1 : Fin 2) * 32 + 1 * (y 1).val = (y 1).val; omega

/-- An index of the messages is in point `t`'s block iff each coordinate is in the block's range on its axis. -/
theorem mem_blk (t : Fin cfg0.N) (i : S1600000x32.Idx) :
    i ∈ ((cfg0.win 7).blk t).view.set ↔ ∀ a : Fin 2, win0_7.index t a * S6400x32.size a ≤ (i a).val ∧ (i a).val < win0_7.index t a * S6400x32.size a + S6400x32.size a := by
  show i ∈ ((View.whole main_v22).slice (win0_7.rect t)).set ↔ _
  rw [View.set_slice_whole, Rect.mem_set_unit]
  exact Iff.rfl

/-- Every edge's row is in the block of the point its row number divided by 6400 names. -/
theorem cover (i : S1600000x32.Idx) :
    ∃ t : Fin cfg0.N, (cfg0.win 7).flush t = true ∧ i ∈ ((cfg0.win 7).blk t).view.set := by
  have hi0 : (i 0).val < 1600000 := (i 0).isLt
  have hi1 : (i 1).val < 32 := (i 1).isLt
  have hN : cfg0.N = 250 := N_0
  obtain ⟨t, htv⟩ : ∃ t : Fin cfg0.N, t.val = (i 0).val / 6400 := ⟨⟨(i 0).val / 6400, by rw [hN]; omega⟩, rfl⟩
  obtain ⟨e00, e01, e10, e11, e20, e21, e30, e31, e40, e41, e50, e51, e60, e61, e70, e71⟩ := idx_facts t
  refine ⟨t, flush0_7 t, ?_⟩
  rw [mem_blk]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 32 ≤ (i 1).val ∧ (i 1).val < win0_7.index t (1 : Fin 2) * 32 + 32; omega

/-- The messages array after the first region: the edge layer of the arrays the region finds. -/
theorem region_eq (c : Dev nD) : (dat0 V c).arrAt 7 cfg0.N = msgs V c :=
  (dat0 V c).arrAt_eq_of_cover 7 (msgs V c) (fun t _ => flushed_eq V c t) cover

end Cert.KernelIdeal.EdgeValue

end
-- ==== Proof.K1Value.lean ====
/-
  The second region's output array, at the ideal values.  Each of the 10 grid points takes 5000 consecutive
  nodes: its block of the node features and of the summed messages, with the two weight blocks and the bias
  whole, and writes back that block of the result.  The body's value is the node layer of its blocks; a node's
  output depends on its own rows only, so every block written back is a block of the node layer of the whole
  arrays, and the 10 blocks tile the rows.
-/
import proofs.«154499_j72026601554521_2_alg».proof.Proof.Gen.KernelIdeal.Frame
import proofs.«154499_j72026601554521_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeValue

open Cert.KernelIdeal Cert.KernelIdeal.Gen Cert.Spec Cert.LibMatmul
open Idealize.ShloMosaic Idealize.ShloMosaic.TcCoe Idealize.ShloMosaic.ValueIdx Idealize.SL.Sem
open Idealize.ShloMosaic.Pipeline (Dat Cfg Window)

/-- The body's value from its loaded blocks is the node layer of the blocks. -/
theorem pay_eq (x0 : Vec Ideal S5000x64 .f32) (x1 : Vec Ideal S5000x32 .f32) (x2 : Vec Ideal S64x64 .f32)
    (x3 : Vec Ideal S32x64 .f32) (x4 : Vec Ideal S1x64 .f32) :
    k1_pay1 (F := Ideal) x0 x1 x2 x3 x4 = nodeK x0 x1 x2 x3 x4 := by
  unfold k1_pay1
  simp only [shapeCast_self]
  funext j
  obtain ⟨p, q, rfl⟩ : ∃ (p : Fin 5000) (q : Fin 64), j = ix2 p q := ⟨j 0, j 1, eq_ix2 j⟩
  rw [nodeK_apply, maximumf_apply, addf_apply, addf_apply]
  refine congrArg₂ max (congrArg₂ (· + ·) (congrArg₂ (· + ·) ?_ ?_) ?_) rfl
  · exact congrFun (matmul_zero_eq dot_S5000x64_S64x64_S5000x64_1_0_0_1_n_n rfl rfl rfl rfl rfl rfl none _ _) _
  · exact congrFun (matmul_zero_eq dot_S5000x32_S32x64_S5000x64_1_0_0_1_n_n rfl rfl rfl rfl rfl rfl none _ _) _
  · exact broadcastTo_apply x4 broadcasts_S1x64_S5000x64 (ix2 p q) (ix2 0 q) (fun a => match a with
      | ⟨0, _⟩ => rfl
      | ⟨1, _⟩ => rfl)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The result as one function of the arrays the region finds: the node layer of the node features, the summed
    messages, the two weight blocks and the bias row. -/
abbrev outs (c : Dev nD) : S50000x64.Idx → EReal :=
  nodeK (V c main_arg0) (V c main_v25) (V c main_v26) (V c main_v27) (V c main_v28)

/-- The index maps over the grid: point `t` takes row block `t` of the two node-indexed inputs and of the output, and
    the whole of the weights and the bias. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The node layer of a row block of the node-indexed inputs is that row block of the node layer. -/
theorem node_block (nf : S50000x64.Idx → EReal) (s : S50000x32.Idx → EReal)
    (wa : S64x64.Idx → EReal) (wb : S32x64.Idx → EReal) (b : S1x64.Idx → EReal)
    (x0 : S5000x64.Idx → EReal) (x1 : S5000x32.Idx → EReal)
    (x2 : S64x64.Idx → EReal) (x3 : S32x64.Idx → EReal) (x4 : S1x64.Idx → EReal)
    (p : Fin 5000) (P : Fin 50000) (q : Fin 64)
    (h0 : ∀ k : Fin 64, x0 (ix2 p k) = nf (ix2 P k)) (h1 : ∀ k : Fin 32, x1 (ix2 p k) = s (ix2 P k))
    (h2 : x2 = wa) (h3 : x3 = wb) (h4 : x4 = b) :
    nodeK x0 x1 x2 x3 x4 (ix2 p q) = nodeK nf s wa wb b (ix2 P q) := by
  subst h2 h3 h4
  exact nodeK_row x0 x1 nf s x2 x3 x4 p P q h0 h1

/-- What point `t` writes back is block `t` of the result. -/
theorem flushed_eq (c : Dev nD) (t : Fin cfg1.N) :
    (dat1 V c).flushed 5 t = ((cfg1.win 5).blk t).view.read (Elt Ideal) (outs V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x32) hz, View.ld_unit_zero (S := S64x64) hz,
    View.ld_unit_zero (S := S32x64) hz, View.ld_unit_zero (S := S1x64) hz]
  rw [pay_eq]
  obtain ⟨e00, e01, e10, e11, e20, e21, e30, e31, e40, e41, e50, e51⟩ := idx_facts t
  have ht : t.val < 10 := lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hq : q.val < 64 := q.isLt
  have he : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show nodeK (iblk1 V c 0 t) (iblk1 V c 1 t) (iblk1 V c 2 t) (iblk1 V c 3 t) (iblk1 V c 4 t) (ix2 p q)
    = outs V c (((cfg1.win 5).blk t).view.emb (ix2 p q))
  rw [he]
  refine node_block (V c main_arg0) (V c main_v25) (V c main_v26) (V c main_v27) (V c main_v28)
    (iblk1 V c 0 t) (iblk1 V c 1 t) (iblk1 V c 2 t) (iblk1 V c 3 t) (iblk1 V c 4 t)
    p ⟨t.val * 5000 + p.val, by omega⟩ q ?_ ?_ ?_ ?_ ?_
  · intro k
    have hk : k.val < 64 := k.isLt
    show V c main_arg0 (((cfg1.win 0).blk t).view.emb (ix2 p k)) = V c main_arg0 (ix2 (⟨t.val * 5000 + p.val, by omega⟩ : Fin 50000) k)
    refine congrArg (V c main_arg0) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    have hk : k.val < 32 := k.isLt
    show V c main_v25 (((cfg1.win 1).blk t).view.emb (ix2 p k)) = V c main_v25 (ix2 (⟨t.val * 5000 + p.val, by omega⟩ : Fin 50000) k)
    refine congrArg (V c main_v25) (funext fun a => Fin.ext ?_)
    match a with
    | ⟨0, _⟩ => show win1_1.index t (0 : Fin 2) * 5000 + 1 * p.val = t.val * 5000 + p.val; omega
    | ⟨1, _⟩ => show win1_1.index t (1 : Fin 2) * 32 + 1 * k.val = k.val; omega
  · funext y
    show V c main_v26 (((cfg1.win 2).blk t).view.emb y) = V c main_v26 y
    refine congrArg (V c main_v26) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_v27 (((cfg1.win 3).blk t).view.emb y) = V c main_v27 y
    refine congrArg (V c main_v27) (funext fun a => Fin.ext ?_)
    match a with
    | ⟨0, _⟩ => show win1_3.index t (0 : Fin 2) * 32 + 1 * (y 0).val = (y 0).val; omega
    | ⟨1, _⟩ => show win1_3.index t (1 : Fin 2) * 64 + 1 * (y 1).val = (y 1).val; omega
  · funext y
    show V c main_v28 (((cfg1.win 4).blk t).view.emb y) = V c main_v28 y
    refine congrArg (V c main_v28) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the result is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29).slice (win1_5.rect t)).set ↔ _
  rw [View.set_slice_whole, Rect.mem_set_unit]
  exact Iff.rfl

/-- Every node's row is in the block of the point its row number divided by 5000 names. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after the second region: the node layer of the arrays the region finds. -/
theorem region_eq (c : Dev nD) : (dat1 V c).arrAt 5 cfg1.N = outs V c :=
  (dat1 V c).arrAt_eq_of_cover 5 (outs V c) (fun t _ => flushed_eq V c t) cover

end Cert.KernelIdeal.NodeValue

end
-- ==== Proof.HostVals.lean ====
/-
  What the kernel program's host operations hand to its two regions, and the program's result, at the ideal values.
  Before the first region the host gathers the two endpoint arrays, cuts the edge weight matrix into its three row
  blocks and recasts the bias as a row; between the regions it scatter-adds the first region's messages, from zeros and at
  the source-node indices, cuts the node weight matrix into its two row blocks and recasts the node bias.  The gathers,
  the index arithmetic and the scatter-add are the reference program's own operations on the same arguments, and are
  carried as they are.
-/
import proofs.«154499_j72026601554521_2_alg».proof.Proof.Gen.KernelIdeal.Frame
import proofs.«154499_j72026601554521_2_alg».proof.Proof.Gen.ReferenceIdeal.Read
import proofs.«154499_j72026601554521_2_alg».proof.Proof.Spec
import proofs.«154499_j72026601554521_2_alg».proof.Proof.KRun
import proofs.«154499_j72026601554521_2_alg».proof.Proof.K0Value
import proofs.«154499_j72026601554521_2_alg».proof.Proof.K1Value
import Idealize.ShloMosaic.Lib.StableHlo.Run

set_option maxRecDepth 16384

noncomputable section

namespace Cert.KernelIdeal.HostVals

open Cert.KernelIdeal Cert.KernelIdeal.Gen Cert.Spec Cert.LibJoinedAxis
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Before the first region -/

theorem V1_v10 (c : Dev nD) : V1 m ρ c main_v10
    = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results
  rfl

theorem V1_v17 (c : Dev nD) : V1 m ρ c main_v17
    = Cert.ReferenceIdeal.Read.val_main_v17 (F := Ideal) (m ((c : Thread nD τ).loc main_arg0)) (m ((c : Thread nD τ).loc main_arg1)) := by
  show StableHlo.after hostOps0 (W0 m ρ c) (Proc.devRef .tc main_v17) = _
  after_results
  rfl

theorem V1_arg2 (c : Dev nD) : V1 m ρ c main_arg2 = m ((c : Thread nD τ).loc main_arg2) := by
  show StableHlo.after hostOps0 (W0 m ρ c) (Proc.devRef .tc main_arg2) = _
  after_results

theorem V1_v18 (c : Dev nD) : V1 m ρ c main_v18 = rowsAt 0 64 (by decide) (m ((c : Thread nD τ).loc main_arg3)) := by
  show StableHlo.after hostOps0 (W0 m ρ c) (Proc.devRef .tc main_v18) = _
  after_results
  exact slice_rows 0 _ _ _

theorem V1_v19 (c : Dev nD) : V1 m ρ c main_v19 = rowsAt 64 64 (by decide) (m ((c : Thread nD τ).loc main_arg3)) := by
  show StableHlo.after hostOps0 (W0 m ρ c) (Proc.devRef .tc main_v19) = _
  after_results
  exact slice_rows 64 _ _ _

theorem V1_v20 (c : Dev nD) : V1 m ρ c main_v20 = rowsAt 128 32 (by decide) (m ((c : Thread nD τ).loc main_arg3)) := by
  show StableHlo.after hostOps0 (W0 m ρ c) (Proc.devRef .tc main_v20) = _
  after_results
  exact slice_rows 128 _ _ _

theorem V1_v21 (c : Dev nD) : V1 m ρ c main_v21 = fun i => m ((c : Thread nD τ).loc main_arg4) (ix1 (i 1)) := by
  show StableHlo.after hostOps0 (W0 m ρ c) (Proc.devRef .tc main_v21) = _
  after_results
  exact reshape_row _ _

/-- The source-node indices, as the reference reads them off the index argument. -/
theorem W1_v1 (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

/-! ## After the first region -/

/-- The messages the first region leaves: the edge layer of the gathered arrays, the edge features, the weights and the
    bias. -/
theorem W2_v22 (c : Dev nD) : W2 m ρ c (Proc.devRef .tc main_v22)
    = edgeFn (Cert.ReferenceIdeal.Read.val_main_v10 (F := Ideal) (m ((c : Thread nD τ).loc main_arg0)) (m ((c : Thread nD τ).loc main_arg1)))
        (Cert.ReferenceIdeal.Read.val_main_v17 (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) := by
  rw [show W2 m ρ c (Proc.devRef .tc main_v22) = (dat0 (V1 m ρ) c).arrAt 7 cfg0.N from W2_arr m ρ c 7,
    EdgeValue.region_eq (V1 m ρ) c]
  show edgeK (V1 m ρ c main_v10) (V1 m ρ c main_v17) (V1 m ρ c main_arg2) (V1 m ρ c main_v18) (V1 m ρ c main_v19)
    (V1 m ρ c main_v20) (V1 m ρ c main_v21) = _
  rw [V1_v10, V1_v17, V1_arg2, V1_v18, V1_v19, V1_v20, V1_v21]
  rfl

theorem W2_v1 (c : Dev nD) : W2 m ρ c (Proc.devRef .tc main_v1)
    = Cert.ReferenceIdeal.Read.val_main_v1 (F := Ideal) (m ((c : Thread nD τ).loc main_arg1)) :=
  (W2_of_ne m ρ c main_v1 (by decide)).trans (W1_v1 m ρ c)

theorem W2_arg0 (c : Dev nD) : W2 m ρ c (Proc.devRef .tc main_arg0) = m ((c : Thread nD τ).loc main_arg0) :=
  (W2_of_ne m ρ c main_arg0 (by decide)).trans (W1_arg0 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

/-! ## Before the second region -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

/-- The summed messages: the scatter-add, from zeros and at the source-node indices, of the first region's messages. -/
theorem V3_v25 (c : Dev nD) : V3 m ρ c main_v25
    = Host.scatterAdd (F := Ideal) (φ := .f32) Cert.ReferenceIdeal.scatter_S50000x32_S1600000x1_S1600000x32_1_0_0_1
        (Cert.ReferenceIdeal.Read.val_main_v24 (F := Ideal))
        (Cert.ReferenceIdeal.Read.val_main_v25 (F := Ideal) (m ((c : Thread nD τ).loc main_arg1)))
        (edgeFn (Cert.ReferenceIdeal.Read.val_main_v10 (F := Ideal) (m ((c : Thread nD τ).loc main_arg0)) (m ((c : Thread nD τ).loc main_arg1)))
          (Cert.ReferenceIdeal.Read.val_main_v17 (F := Ideal) (m ((c : Thread nD τ).loc main_arg0)) (m ((c : Thread nD τ).loc main_arg1)))
          (m ((c : Thread nD τ).loc main_arg2)) (m ((c : Thread nD τ).loc main_arg3)) (m ((c : Thread nD τ).loc main_arg4))) := by
  show StableHlo.after hostOps1 (W2 m ρ c) (Proc.devRef .tc main_v25) = _
  after_results
  rw [W2_v1, W2_v22]
  rfl

theorem V3_v26 (c : Dev nD) : V3 m ρ c main_v26 = rowsAt 0 64 (by decide) (m ((c : Thread nD τ).loc main_arg5)) := by
  show StableHlo.after hostOps1 (W2 m ρ c) (Proc.devRef .tc main_v26) = _
  after_results
  rw [W2_arg5]
  exact slice_rows 0 _ _ _

theorem V3_v27 (c : Dev nD) : V3 m ρ c main_v27 = rowsAt 64 32 (by decide) (m ((c : Thread nD τ).loc main_arg5)) := by
  show StableHlo.after hostOps1 (W2 m ρ c) (Proc.devRef .tc main_v27) = _
  after_results
  rw [W2_arg5]
  exact slice_rows 64 _ _ _

theorem V3_v28 (c : Dev nD) : V3 m ρ c main_v28 = fun i => m ((c : Thread nD τ).loc main_arg6) (ix1 (i 1)) := by
  show StableHlo.after hostOps1 (W2 m ρ c) (Proc.devRef .tc main_v28) = _
  after_results
  rw [W2_arg6]
  exact reshape_row _ _

/-! ## The result -/

/-- The node layer of the node features, the scatter-added edge layer, and the node weights and bias, of the launch
    contents of the arguments. -/
def result (c : Dev nD) : S50000x64.Idx → EReal :=
  nodeFn (m ((c : Thread nD τ).loc main_arg0))
    (Host.scatterAdd (F := Ideal) (φ := .f32) Cert.ReferenceIdeal.scatter_S50000x32_S1600000x1_S1600000x32_1_0_0_1
      (Cert.ReferenceIdeal.Read.val_main_v24 (F := Ideal))
      (Cert.ReferenceIdeal.Read.val_main_v25 (F := Ideal) (m ((c : Thread nD τ).loc main_arg1)))
      (edgeFn (Cert.ReferenceIdeal.Read.val_main_v10 (F := Ideal) (m ((c : Thread nD τ).loc main_arg0)) (m ((c : Thread nD τ).loc main_arg1)))
        (Cert.ReferenceIdeal.Read.val_main_v17 (F := Ideal) (m ((c : Thread nD τ).loc main_arg0)) (m ((c : Thread nD τ).loc main_arg1)))
        (m ((c : Thread nD τ).loc main_arg2)) (m ((c : Thread nD τ).loc main_arg3)) (m ((c : Thread nD τ).loc main_arg4))))
    (m ((c : Thread nD τ).loc main_arg5)) (m ((c : Thread nD τ).loc main_arg6))

/-- The program's result: the node layer of the node features, the summed messages, the node weights and bias. -/
theorem result_value (c : Dev nD) : W4 m ρ c (Proc.devRef .tc main_v29) = result m c := by
  rw [RunValue.last_result, NodeValue.region_eq (V3 m ρ) c]
  show nodeK (V3 m ρ c main_arg0) (V3 m ρ c main_v25) (V3 m ρ c main_v26) (V3 m ρ c main_v27) (V3 m ρ c main_v28) = _
  rw [V3_arg0, V3_v25, V3_v26, V3_v27, V3_v28]
  rfl

end Cert.KernelIdeal.HostVals

end
-- ==== Proof.RefValue.lean ====
/-
  The reference program's result, at the ideal values, as the two layers.  The reference joins the two gathered
  endpoint arrays and the edge features side by side and multiplies by the whole weight matrix; the sum over the
  joined axis is the sum of the three pieces' sums, which is the edge layer.  The node layer likewise over the node
  features joined with the summed messages.  The gathers and the scatter-add are carried as they are.
-/
import proofs.«154499_j72026601554521_2_alg».proof.Proof.Gen.ReferenceIdeal.Read
import proofs.«154499_j72026601554521_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Spec Cert.LibMatmul
open Idealize.ShloMosaic Idealize.ShloMosaic.ValueIdx

/-! ## The joined arrays read at a column of each piece -/

theorem cat3_0 (g0 g1 : S1600000x64.Idx → EReal) (ef : S1600000x32.Idx → EReal) (p : Fin 1600000) (k : Fin 64) :
    concatenate S1600000x160 1 [⟨S1600000x64, g0⟩, ⟨S1600000x64, g1⟩, ⟨S1600000x32, ef⟩]
      concatenates_S1600000x64_S1600000x64_S1600000x32_S1600000x160_d1
      (ix2 p ⟨0 + k.val, by have := k.isLt; omega⟩) = g0 (ix2 p k) :=
  concatenate_apply_piece (α := EReal) (t := S1600000x160) 1 [⟨S1600000x64, g0⟩, ⟨S1600000x64, g1⟩, ⟨S1600000x32, ef⟩]
    concatenates_S1600000x64_S1600000x64_S1600000x32_S1600000x160_d1 (ix2 p ⟨0 + k.val, by have := k.isLt; omega⟩)
    0 (by simp) S1600000x64 g0 rfl rfl 0 rfl (ix2 p k)
    (fun b hb => match b with
      | ⟨0, _⟩ => rfl
      | ⟨1, _⟩ => absurd (Fin.ext rfl) hb) rfl

theorem cat3_1 (g0 g1 : S1600000x64.Idx → EReal) (ef : S1600000x32.Idx → EReal) (p : Fin 1600000) (k : Fin 64) :
    concatenate S1600000x160 1 [⟨S1600000x64, g0⟩, ⟨S1600000x64, g1⟩, ⟨S1600000x32, ef⟩]
      concatenates_S1600000x64_S1600000x64_S1600000x32_S1600000x160_d1
      (ix2 p ⟨64 + k.val, by have := k.isLt; omega⟩) = g1 (ix2 p k) :=
  concatenate_apply_piece (α := EReal) (t := S1600000x160) 1 [⟨S1600000x64, g0⟩, ⟨S1600000x64, g1⟩, ⟨S1600000x32, ef⟩]
    concatenates_S1600000x64_S1600000x64_S1600000x32_S1600000x160_d1 (ix2 p ⟨64 + k.val, by have := k.isLt; omega⟩)
    1 (by simp) S1600000x64 g1 rfl rfl 64 rfl (ix2 p k)
    (fun b hb => match b with
      | ⟨0, _⟩ => rfl
      | ⟨1, _⟩ => absurd (Fin.ext rfl) hb) rfl

theorem cat3_2 (g0 g1 : S1600000x64.Idx → EReal) (ef : S1600000x32.Idx → EReal) (p : Fin 1600000) (k : Fin 32) :
    concatenate S1600000x160 1 [⟨S1600000x64, g0⟩, ⟨S1600000x64, g1⟩, ⟨S1600000x32, ef⟩]
      concatenates_S1600000x64_S1600000x64_S1600000x32_S1600000x160_d1
      (ix2 p ⟨128 + k.val, by have := k.isLt; omega⟩) = ef (ix2 p k) :=
  concatenate_apply_piece (α := EReal) (t := S1600000x160) 1 [⟨S1600000x64, g0⟩, ⟨S1600000x64, g1⟩, ⟨S1600000x32, ef⟩]
    concatenates_S1600000x64_S1600000x64_S1600000x32_S1600000x160_d1 (ix2 p ⟨128 + k.val, by have := k.isLt; omega⟩)
    2 (by simp) S1600000x32 ef rfl rfl 128 rfl (ix2 p k)
    (fun b hb => match b with
      | ⟨0, _⟩ => rfl
      | ⟨1, _⟩ => absurd (Fin.ext rfl) hb) rfl

theorem cat2_0 (nf : S50000x64.Idx → EReal) (s : S50000x32.Idx → EReal) (p : Fin 50000) (k : Fin 64) :
    concatenate S50000x96 1 [⟨S50000x64, nf⟩, ⟨S50000x32, s⟩] concatenates_S50000x64_S50000x32_S50000x96_d1
      (ix2 p ⟨0 + k.val, by have := k.isLt; omega⟩) = nf (ix2 p k) :=
  concatenate_apply_piece (α := EReal) (t := S50000x96) 1 [⟨S50000x64, nf⟩, ⟨S50000x32, s⟩]
    concatenates_S50000x64_S50000x32_S50000x96_d1 (ix2 p ⟨0 + k.val, by have := k.isLt; omega⟩)
    0 (by simp) S50000x64 nf rfl rfl 0 rfl (ix2 p k)
    (fun b hb => match b with
      | ⟨0, _⟩ => rfl
      | ⟨1, _⟩ => absurd (Fin.ext rfl) hb) rfl

theorem cat2_1 (nf : S50000x64.Idx → EReal) (s : S50000x32.Idx → EReal) (p : Fin 50000) (k : Fin 32) :
    concatenate S50000x96 1 [⟨S50000x64, nf⟩, ⟨S50000x32, s⟩] concatenates_S50000x64_S50000x32_S50000x96_d1
      (ix2 p ⟨64 + k.val, by have := k.isLt; omega⟩) = s (ix2 p k) :=
  concatenate_apply_piece (α := EReal) (t := S50000x96) 1 [⟨S50000x64, nf⟩, ⟨S50000x32, s⟩]
    concatenates_S50000x64_S50000x32_S50000x96_d1 (ix2 p ⟨64 + k.val, by have := k.isLt; omega⟩)
    1 (by simp) S50000x32 s rfl rfl 64 rfl (ix2 p k)
    (fun b hb => match b with
      | ⟨0, _⟩ => rfl
      | ⟨1, _⟩ => absurd (Fin.ext rfl) hb) rfl

/-! ## The two layers -/

/-- The reference's messages are the edge layer of its two gathered arrays, the edge features, the weights and the bias. -/
theorem ref_edge (x0 : (⟨S50000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S160x32, .f32⟩ : BufTy).Contents (Elt Ideal))
    (x4 : (⟨S32, .f32⟩ : BufTy).Contents (Elt Ideal)) :
    val_main_v23 (F := Ideal) x0 x1 x2 x3 x4
      = edgeFn (val_main_v10 (F := Ideal) x0 x1) (val_main_v17 (F := Ideal) x0 x1) x2 x3 x4 := by
  funext i
  obtain ⟨p, q, rfl⟩ : ∃ (p : Fin 1600000) (q : Fin 32), i = ix2 p q := ⟨i 0, i 1, eq_ix2 i⟩
  rw [val_main_v23_apply, val_main_v22_apply, val_main_call0_v0_apply, val_main_call0_cst_apply, val_main_v21_apply,
    val_main_v20_apply]
  unfold edgeFn
  rw [edgeK_apply]
  have e : val_main_v19 (F := Ideal) x0 x1 x2 x3 = MM (val_main_v18 (F := Ideal) x0 x1 x2) x3 := by
    unfold val_main_v19
    simp only [Host.dotGeneral]
    exact dotGeneral_eq dot_S1600000x160_S160x32_S1600000x32_1_0_0_1_n_n rfl rfl rfl rfl rfl rfl none _ _ _
  rw [e]
  unfold val_main_v18
  generalize val_main_v10 (F := Ideal) x0 x1 = g0
  generalize val_main_v17 (F := Ideal) x0 x1 = g1
  refine congrArg₂ max (congrArg₂ (· + ·) ?_ ?_) rfl
  · exact MM_cat3 _ g0 g1 x2 x3 p q (fun k => cat3_0 g0 g1 x2 p k) (fun k => cat3_1 g0 g1 x2 p k) (fun k => cat3_2 g0 g1 x2 p k)
  · exact congrArg x4 (funext fun a => match a with | ⟨0, _⟩ => rfl)

/-- The reference's result is the node layer of the node features, its summed messages, the weights and the bias. -/
theorem ref_node (x0 : (⟨S50000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S160x32, .f32⟩ : BufTy).Contents (Elt Ideal))
    (x4 : (⟨S32, .f32⟩ : BufTy).Contents (Elt Ideal)) (x5 : (⟨S96x64, .f32⟩ : BufTy).Contents (Elt Ideal))
    (x6 : (⟨S64, .f32⟩ : BufTy).Contents (Elt Ideal)) :
    val_main_v32 (F := Ideal) x0 x1 x2 x3 x4 x5 x6
      = nodeFn x0 (val_main_v26 (F := Ideal) x0 x1 x2 x3 x4) x5 x6 := by
  funext i
  obtain ⟨p, q, rfl⟩ : ∃ (p : Fin 50000) (q : Fin 64), i = ix2 p q := ⟨i 0, i 1, eq_ix2 i⟩
  rw [val_main_v32_apply, val_main_v31_apply, val_main_call1_v0_apply, val_main_call1_cst_apply, val_main_v30_apply,
    val_main_v29_apply]
  unfold nodeFn
  rw [nodeK_apply]
  have e : val_main_v28 (F := Ideal) x0 x1 x2 x3 x4 x5 = MM (val_main_v27 (F := Ideal) x0 x1 x2 x3 x4) x5 := by
    unfold val_main_v28
    simp only [Host.dotGeneral]
    exact dotGeneral_eq dot_S50000x96_S96x64_S50000x64_1_0_0_1_n_n rfl rfl rfl rfl rfl rfl none _ _ _
  rw [e]
  unfold val_main_v27
  generalize val_main_v26 (F := Ideal) x0 x1 x2 x3 x4 = s
  refine congrArg₂ max (congrArg₂ (· + ·) ?_ ?_) rfl
  · exact MM_cat2 _ x0 s x5 p q (fun k => cat2_0 x0 s p k) (fun k => cat2_1 x0 s p k)
  · exact congrArg x6 (funext fun a => match a with | ⟨0, _⟩ => rfl)

/-- The summed messages as the reference states them: the scatter-add, from zeros and at the source-node indices, of the
    edge layer. -/
theorem ref_sums (x0 : (⟨S50000x64, .f32⟩ : BufTy).Contents (Elt Ideal)) (x1 : (⟨S2x1600000, .i32⟩ : BufTy).Contents (Elt Ideal))
    (x2 : (⟨S1600000x32, .f32⟩ : BufTy).Contents (Elt Ideal)) (x3 : (⟨S160x32, .f32⟩ : BufTy).Contents (Elt Ideal))
    (x4 : (⟨S32, .f32⟩ : BufTy).Contents (Elt Ideal)) :
    val_main_v26 (F := Ideal) x0 x1 x2 x3 x4
      = Host.scatterAdd (F := Ideal) (φ := .f32) scatter_S50000x32_S1600000x1_S1600000x32_1_0_0_1 (val_main_v24 (F := Ideal)) (val_main_v25 (F := Ideal) x1)
          (edgeFn (val_main_v10 (F := Ideal) x0 x1) (val_main_v17 (F := Ideal) x0 x1) x2 x3 x4) := by
  unfold val_main_v26
  rw [ref_edge]

end Cert.ReferenceIdeal.RefValue

end
-- ==== Proof.lean ====
/-
  A message-passing layer over a graph of 1,600,000 edges and 50,000 nodes: gather the two endpoint rows of every edge,
  pass [x₀ | x₁ | xe] through a linear map and a relu to get the edge's message, sum the messages onto their source nodes,
  and pass [x | s] through a second linear map and a relu.  The kernel program computes the two linear maps in two
  pipelined regions that never join the inputs: it multiplies each piece by the matching row block of the weight matrix
  and adds the products, 6400 edges and 5000 nodes at a time, with the operands narrowed to bf16 before the products.
  At the ideal values a change of float format is the identity and a sum over a joined axis is the sum of the sums over
  its pieces (addition on the extended reals is commutative and associative; no finiteness is used), so the two programs
  compute one function of their arguments; the gathers, the index arithmetic and the scatter-add are the same host
  operations on the same arrays in both programs and are never opened.  The idealization rewrote no operation.
-/
import proofs.«154499_j72026601554521_2_alg».proof.Defs
import proofs.«154499_j72026601554521_2_alg».proof.Proof.Gen.Kernel
import proofs.«154499_j72026601554521_2_alg».proof.Proof.Gen.Kernel.Skeleton
import proofs.«154499_j72026601554521_2_alg».proof.Proof.Gen.Kernel.Launch
import proofs.«154499_j72026601554521_2_alg».proof.Proof.Gen.Kernel.Points
import proofs.«154499_j72026601554521_2_alg».proof.Proof.Gen.Kernel.Frame
import proofs.«154499_j72026601554521_2_alg».proof.Proof.Gen.KernelIdeal
import proofs.«154499_j72026601554521_2_alg».proof.Proof.Gen.KernelIdeal.Skeleton
import proofs.«154499_j72026601554521_2_alg».proof.Proof.Gen.KernelIdeal.Launch
import proofs.«154499_j72026601554521_2_alg».proof.Proof.Gen.KernelIdeal.Points
import proofs.«154499_j72026601554521_2_alg».proof.Proof.Gen.KernelIdeal.Frame
import proofs.«154499_j72026601554521_2_alg».proof.Proof.Gen.ReferenceIdeal
import proofs.«154499_j72026601554521_2_alg».proof.Proof.Gen.ReferenceIdeal.Run
import proofs.«154499_j72026601554521_2_alg».proof.Proof.Gen.ReferenceIdeal.Read
import proofs.«154499_j72026601554521_2_alg».proof.Proof.Gen.Pre_finite_inputs
import proofs.«154499_j72026601554521_2_alg».proof.Proof.HostVals
import proofs.«154499_j72026601554521_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the node layer of the node features, the scatter-added edge layer, the node weights and bias. -/
theorem algebraic : Cert.algebraic_KernelIdeal_ReferenceIdeal := by
  intro m ρ m' ρ' _ hagree
  refine ⟨fun c => Cert.KernelIdeal.HostVals.result m c, ?_, ?_⟩
  · exact (θ_run Cert.KernelIdeal.defs _ _).mono
      (fun r h c => ⟨(h c).1.trans (Cert.KernelIdeal.HostVals.result_value m ρ c), (h c).2⟩)
      (Cert.KernelIdeal.RunValue.run_last m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.ref_node, Cert.ReferenceIdeal.RefValue.ref_sums,
      (hagree c).1, (hagree c).2.1, (hagree c).2.2.1, (hagree c).2.2.2.1, (hagree c).2.2.2.2.1, (hagree c).2.2.2.2.2.1,
      (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
